-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S64x5x512 : Shape := ⟨3, ![64, 5, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S64x5x512 : S_.BroadcastsInDim S64x5x512 (![] : Fin 0 → Fin S64x5x512.rank)
  reducesTo_S64x5x512_S_d0_1_2 : S64x5x512.ReducesTo [0, 1, 2] S_

variable [Facts]

def fn {F : FTy → Type} [FloatOps F] (main_arg0 : FVec F S8192x512 .f32) (main_arg1 : FVec F S64x5x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S64x5x512 .f32 := Host.absf main_arg1
  let main_cst_0 : FVec F S_ .f32 := constant S_ .f32 0x7F800000#32
  let main_v5 : FVec F S64x5x512 .f32 := broadcastInDim S64x5x512 ![] bcast_S_S64x5x512 main_cst_0
  let main_v6 : IVec S64x5x512 1 := cmpf .olt main_v4 main_v5
  let main_c_1 : IVec S_ 1 := constantI S_ 1 1#1
  let main_v7 : IVec S_ 1 := (fun x v => Host.reduce IntOp.andi x v reducesTo_S64x5x512_S_d0_1_2 h_S_) main_v6 main_c_1
  let main_v8 : IVec S_ 1 := andi main_v3 main_v7
  main_v8
-- ==== Kernel.lean ====
abbrev S8192x512 : Shape := ⟨2, ![8192, 512]⟩
abbrev S64x5x512 : Shape := ⟨3, ![64, 5, 512]⟩
abbrev S_ : Shape := ⟨0, ![]⟩
abbrev S64x512 : Shape := ⟨2, ![64, 512]⟩
abbrev S8192x64 : Shape := ⟨2, ![8192, 64]⟩
abbrev S256x512 : Shape := ⟨2, ![256, 512]⟩
abbrev S256x64 : Shape := ⟨2, ![256, 64]⟩
abbrev S8x512 : Shape := ⟨2, ![8, 512]⟩
abbrev S256x1x512 : Shape := ⟨3, ![256, 1, 512]⟩
abbrev S1x8x512 : Shape := ⟨3, ![1, 8, 512]⟩
abbrev S256x8x512 : Shape := ⟨3, ![256, 8, 512]⟩
abbrev S256x8 : Shape := ⟨2, ![256, 8]⟩
abbrev S256 : Shape := ⟨1, ![256]⟩
abbrev S256x1 : Shape := ⟨2, ![256, 1]⟩

abbrev nBuf : Space → Nat
  | .hbm => 8
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S64x5x512, .f32⟩
  | .hbm, ⟨2, _⟩ => ⟨S_, .f32⟩
  | .hbm, ⟨3, _⟩ => ⟨S64x512, .f32⟩
  | .hbm, ⟨4, _⟩ => ⟨S_, .f32⟩
  | .hbm, ⟨5, _⟩ => ⟨S64x512, .f32⟩
  | .hbm, ⟨6, _⟩ => ⟨S64x512, .f32⟩
  | .hbm, ⟨7, _⟩ => ⟨S8192x64, .f32⟩
  | .local _ .vmem, ⟨0, _⟩ => ⟨S256x512, .f32⟩
  | .local _ .vmem, ⟨1, _⟩ => ⟨S256x512, .f32⟩
  | .local _ .vmem, ⟨2, _⟩ => ⟨S64x512, .f32⟩
  | .local _ .vmem, ⟨3, _⟩ => ⟨S256x64, .f32⟩
  | .local _ .vmem, ⟨4, _⟩ => ⟨S256x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S64x5x512_S64x512_d1 : S64x5x512.ReducesTo [1] S64x512
  h_S_ : 0 < S_.numel
  bcast_S_S64x512 : S_.BroadcastsInDim S64x512 (![] : Fin 0 → Fin S64x512.rank)
  inb_S256x512_S256x512_0_0 : ∀ a, (![0, 0] : Fin 2 → Nat) a + S256x512.size a ≤ S256x512.size a
  h_S256x512 : 0 < S256x512.numel
  inb_S64x512_S8x512_0_0 : ∀ a, (![0, 0] : Fin 2 → Nat) a + S8x512.size a ≤ S64x512.size a
  h_S8x512 : 0 < S8x512.numel
  shapeCasts_S8x512_S8x512 : S8x512.ShapeCasts S8x512
  shapeCasts_S256x512_S256x1x512 : S256x512.ShapeCasts S256x1x512
  shapeCasts_S8x512_S1x8x512 : S8x512.ShapeCasts S1x8x512
  broadcasts_S256x1x512_S256x8x512 : S256x1x512.Broadcasts S256x8x512
  broadcasts_S1x8x512_S256x8x512 : S1x8x512.Broadcasts S256x8x512
  reduces_S256x8x512_S256x8 : S256x8x512.Reduces [2] S256x8
  inb_S64x512_S8x512_8_0 : ∀ a, (![8, 0] : Fin 2 → Nat) a + S8x512.size a ≤ S64x512.size a
  inb_S64x512_S8x512_16_0 : ∀ a, (![16, 0] : Fin 2 → Nat) a + S8x512.size a ≤ S64x512.size a
  inb_S64x512_S8x512_24_0 : ∀ a, (![24, 0] : Fin 2 → Nat) a + S8x512.size a ≤ S64x512.size a
  inb_S64x512_S8x512_32_0 : ∀ a, (![32, 0] : Fin 2 → Nat) a + S8x512.size a ≤ S64x512.size a
  inb_S64x512_S8x512_40_0 : ∀ a, (![40, 0] : Fin 2 → Nat) a + S8x512.size a ≤ S64x512.size a
  inb_S64x512_S8x512_48_0 : ∀ a, (![48, 0] : Fin 2 → Nat) a + S8x512.size a ≤ S64x512.size a
  inb_S64x512_S8x512_56_0 : ∀ a, (![56, 0] : Fin 2 → Nat) a + S8x512.size a ≤ S64x512.size a
  concatenates_S256x8_S256x8_S256x8_S256x8_S256x8_S256x8_S256x8_S256x8_S256x64_d1 : Shape.Concatenates [S256x8, S256x8, S256x8, S256x8, S256x8, S256x8, S256x8, S256x8] S256x64 1
  reduces_S256x64_S256 : S256x64.Reduces [1] S256
  shapeCasts_S256_S256x1 : S256.ShapeCasts S256x1
  broadcasts_S256x1_S256x64 : S256x1.Broadcasts S256x64
  inb_S256x64_S256x64_0_0 : ∀ a, (![0, 0] : Fin 2 → Nat) a + S256x64.size a ≤ S256x64.size a
  h_S256x64 : 0 < S256x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S64x5x512 : Shape := ⟨3, ![64, 5, 512]⟩
abbrev S_ : Shape := ⟨0, ![]⟩
abbrev S64x512 : Shape := ⟨2, ![64, 512]⟩
abbrev S8192x1x512 : Shape := ⟨3, ![8192, 1, 512]⟩
abbrev S1x64x512 : Shape := ⟨3, ![1, 64, 512]⟩
abbrev S8192x64x512 : Shape := ⟨3, ![8192, 64, 512]⟩
abbrev S8192x64 : Shape := ⟨2, ![8192, 64]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S64x5x512, .f32⟩
  | .hbm, ⟨2, _⟩ => ⟨S_, .f32⟩
  | .hbm, ⟨3, _⟩ => ⟨S64x512, .f32⟩
  | .hbm, ⟨4, _⟩ => ⟨S_, .f32⟩
  | .hbm, ⟨5, _⟩ => ⟨S64x512, .f32⟩
  | .hbm, ⟨6, _⟩ => ⟨S64x512, .f32⟩
  | .hbm, ⟨7, _⟩ => ⟨S8192x1x512, .f32⟩
  | .hbm, ⟨8, _⟩ => ⟨S1x64x512, .f32⟩
  | .hbm, ⟨9, _⟩ => ⟨S8192x64x512, .f32⟩
  | .hbm, ⟨10, _⟩ => ⟨S8192x64x512, .f32⟩
  | .hbm, ⟨11, _⟩ => ⟨S8192x64x512, .f32⟩
  | .hbm, ⟨12, _⟩ => ⟨S8192x64x512, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S64x5x512_S64x512_d1 : S64x5x512.ReducesTo [1] S64x512
  h_S_ : 0 < S_.numel
  bcast_S_S64x512 : S_.BroadcastsInDim S64x512 (![] : Fin 0 → Fin S64x512.rank)
  bcast_S8192x512_S8192x1x512_0_2 : S8192x512.BroadcastsInDim S8192x1x512 (![0, 2] : Fin 2 → Fin S8192x1x512.rank)
  bcast_S64x512_S1x64x512_1_2 : S64x512.BroadcastsInDim S1x64x512 (![1, 2] : Fin 2 → Fin S1x64x512.rank)
  bcast_S8192x1x512_S8192x64x512_0_1_2 : S8192x1x512.BroadcastsInDim S8192x64x512 (![0, 1, 2] : Fin 3 → Fin S8192x64x512.rank)
  bcast_S1x64x512_S8192x64x512_0_1_2 : S1x64x512.BroadcastsInDim S8192x64x512 (![0, 1, 2] : Fin 3 → Fin S8192x64x512.rank)
  reducesTo_S8192x64x512_S8192x64_d2 : S8192x64x512.ReducesTo [2] S8192x64
  reducesTo_S8192x64_S8192_d1 : S8192x64.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)

variable [Facts₀]

class Facts : Prop extends Facts₀ where

variable [Facts]
-- ==== Proof.ClassProb.lean ====
/-
  Class probabilities from L1 distances to class prototypes: the function both programs compute.

  A query is a row of 512 features, a prototype likewise; there are 8192 queries and 64 prototypes. The distance of a
  query to prototype `c` is the sum over the features of the absolute difference, the score is its negative, and the
  probabilities of a query are the softmax of its 64 scores: each score less the largest one, exponentiated, divided by
  the sum of those exponentials. Everything is on the extended reals, where the absolute value of `a` is `max a (-a)`,
  the largest score is the fold of `max` from minus infinity (kept as the f32 pattern both programs start from), and
  the quotient is the extended reals' division. No law beyond the operations themselves is used: the two programs
  apply the same operations in the same order, and differ only in how they lay the 64 distances out.
-/
import Idealize.ShloMosaic.PureOps.Ideal
import Idealize.ShloMosaic.Lib.ValueIdx

noncomputable section

namespace Cert.ClassProb

open Idealize.ShloMosaic Idealize.ShloMosaic.ValueIdx

/-- The L1 distance from the feature row `u` to prototype `c`: the sum over the 512 features of `|u d - P (c, d)|`. -/
def l1 (u : Fin 512 → EReal) (P : (⟨2, ![64, 512]⟩ : Shape).Idx → EReal) (c : Fin 64) : EReal :=
  ∑ d : Fin 512, max (u d - P (ix2 c d)) (-(u d - P (ix2 c d)))

/-- The largest of 64 scores: the fold of `max` over them from minus infinity. -/
def top (s : Fin 64 → EReal) : EReal :=
  (Finset.univ : Finset (Fin 64)).fold max (Ideal.ofBits .f32 0xFF800000#32) s

/-- A score's weight: the exponential of the score less the largest score. -/
def weight (s : Fin 64 → EReal) (c : Fin 64) : EReal := Ideal.exp (s c - top s)

/-- The softmax of 64 scores at `c`: the weight of `c` over the sum of the 64 weights. -/
def soft (s : Fin 64 → EReal) (c : Fin 64) : EReal := Ideal.div (weight s c) (∑ k : Fin 64, weight s k)

/-- The scores of a feature row: the negated distances to the 64 prototypes. -/
def scores (u : Fin 512 → EReal) (P : (⟨2, ![64, 512]⟩ : Shape).Idx → EReal) : Fin 64 → EReal :=
  fun c => -(l1 u P c)

/-- The probability of class `c` for query `q`, as an `[8192, 64]` array: the softmax of query `q`'s scores at `c`. -/
def classProb (X : (⟨2, ![8192, 512]⟩ : Shape).Idx → EReal) (P : (⟨2, ![64, 512]⟩ : Shape).Idx → EReal) :
    (⟨2, ![8192, 64]⟩ : Shape).Idx → EReal :=
  fun i => soft (scores (fun d => X (ix2 (i 0) d)) P) (i 1)

end Cert.ClassProb

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.RefIsClassProb.lean ====
/-
  The reference computes the class probabilities.

  Read one operation at a time, the reference subtracts prototype `c` from query `q` feature by feature over an
  `[8192, 64, 512]` array, takes absolute values, sums along the features from zero, negates, takes each query's largest
  score along the classes from minus infinity (and once more against minus infinity, which changes nothing: the fold
  already starts there), subtracts it, exponentiates, sums along the classes from zero and divides. The prototypes
  themselves — the mean over the five shots — are the same stage in both programs and are never opened here.
  The largest score is a fold of `max` over the 64 classes; the sums from zero are plain sums, since the zero pattern
  is the extended real `0`.
-/
import proofs.«140538_j64939905516355_2_alg».proof.Proof.Gen.ReferenceIdeal.Read
import proofs.«140538_j64939905516355_2_alg».proof.Proof.ClassProb
import proofs.«140538_j64939905516355_2_alg».proof.Proof.LibRowOps

noncomputable section

namespace Cert.ReferenceIdeal.RefValue

open Cert.ReferenceIdeal Cert.ReferenceIdeal.Gen Cert.ReferenceIdeal.Read Idealize.ShloMosaic Idealize.ShloMosaic.ValueIdx Cert.ClassProb

variable (x0 : (⟨S8192x512, .f32⟩ : BufTy).Contents (Elt Ideal)) (x1 : (⟨S64x5x512, .f32⟩ : BufTy).Contents (Elt Ideal))

/-- The negated distance of query `q` to class `c` is the score of `q`'s feature row at `c`. -/
theorem score_eq (q : Fin 8192) (c : Fin 64) :
    val_main_v10 (F := Ideal) x0 x1 (ix2 q c) = scores (fun d => x0 (ix2 q d)) (val_main_v2 (F := Ideal) x1) c := by
  rw [val_main_v10_apply, val_main_v9_apply]
  simp only [val_main_v8_apply, val_main_v7_apply, val_main_v5_apply, val_main_v3_apply, val_main_v6_apply,
    val_main_v4_apply, val_main_cst_1_apply]
  have e0 : ∀ k : Fin 512, idx_main_v3 (idx_main_v5 (idx_main_v9 (ix2 q c) k)) = ix2 q k := fun k =>
    funext fun a => Fin.ext (by match a with | ⟨0, _⟩ => rfl | ⟨1, _⟩ => rfl)
  have e1 : ∀ k : Fin 512, idx_main_v4 (idx_main_v6 (idx_main_v9 (ix2 q c) k)) = ix2 c k := fun k =>
    funext fun a => Fin.ext (by match a with | ⟨0, _⟩ => rfl | ⟨1, _⟩ => rfl)
  simp only [e0, e1]
  show -(Ideal.ofBits .f32 0x00000000#32 + ∑ k : Fin 512, max (x0 (ix2 q k) - val_main_v2 (F := Ideal) x1 (ix2 c k))
      (-(x0 (ix2 q k) - val_main_v2 (F := Ideal) x1 (ix2 c k)))) = _
  rw [Ideal.ofBits_zero_f32, zero_add]
  rfl

/-- Query `q`'s largest score, as the reference takes it, is the fold of `max` over the query's 64 scores. -/
theorem top_eq (q : Fin 8192) :
    val_main_v13 (F := Ideal) x0 x1 (ix1 q) = top (scores (fun d => x0 (ix2 q d)) (val_main_v2 (F := Ideal) x1)) := by
  have h : S8192x64.Reduces [1] S8192 := by decide
  rw [val_main_v13_apply, val_main_v12_apply, val_main_cst_3_apply]
  unfold val_main_v11
  rw [Host.reduce_eq_fold_single FloatOps.maximumf _ _ reducesTo_S8192x64_S8192_d1 h h_S_ (ix1 q)]
  have hf : (val_main_v10 (F := Ideal) x0 x1 ∘ h.lift (ix1 q))
      = scores (fun d => x0 (ix2 q d)) (val_main_v2 (F := Ideal) x1) := funext fun k => by
    show val_main_v10 (F := Ideal) x0 x1 (h.lift (ix1 q) k) = _
    rw [Cert.RowOps.lift_row h q k, score_eq]
    rfl
  rw [hf]
  show max (Ideal.ofBits .f32 0xFF800000#32) ((Finset.univ : Finset (Fin 64)).fold max (Ideal.ofBits .f32 0xFF800000#32)
      (scores (fun d => x0 (ix2 q d)) (val_main_v2 (F := Ideal) x1))) = _
  exact max_eq_right ((Finset.le_fold_max _).mpr (Or.inl le_rfl))

/-- The exponential of a score less the query's largest is the score's weight. -/
theorem weight_eq (q : Fin 8192) (c : Fin 64) :
    val_main_v17 (F := Ideal) x0 x1 (ix2 q c) = weight (scores (fun d => x0 (ix2 q d)) (val_main_v2 (F := Ideal) x1)) c := by
  rw [val_main_v17_apply, val_main_v16_apply, val_main_v15_apply, val_main_v14_apply]
  have e : idx_main_v14 (idx_main_v15 (ix2 q c)) = ix1 q :=
    funext fun a => Fin.ext (by match a with | ⟨0, _⟩ => rfl)
  rw [e, top_eq, score_eq]
  rfl

/-- The reference's result is the class probabilities of the queries against the prototypes. -/
theorem result_eq :
    val_main_v21 (F := Ideal) x0 x1 = classProb x0 (val_main_v2 (F := Ideal) x1) := by
  funext i
  obtain ⟨q, c, rfl⟩ : ∃ (q : Fin 8192) (c : Fin 64), i = ix2 q c := ⟨i 0, i 1, eq_ix2 i⟩
  rw [val_main_v21_apply, val_main_v20_apply, val_main_v19_apply, val_main_v18_apply, val_main_cst_4_apply]
  have e : idx_main_v19 (idx_main_v20 (ix2 q c)) = ix1 q :=
    funext fun a => Fin.ext (by match a with | ⟨0, _⟩ => rfl)
  have e2 : ∀ k : Fin 64, idx_main_v18 (ix1 q) k = ix2 q k := fun k =>
    funext fun a => Fin.ext (by match a with | ⟨0, _⟩ => rfl | ⟨1, _⟩ => rfl)
  rw [e]
  simp only [e2, weight_eq]
  show Ideal.div (weight (scores (fun d => x0 (ix2 q d)) (val_main_v2 (F := Ideal) x1)) c)
      (Ideal.ofBits .f32 0x00000000#32 + ∑ k : Fin 64, weight (scores (fun d => x0 (ix2 q d)) (val_main_v2 (F := Ideal) x1)) k) = _
  rw [Ideal.ofBits_zero_f32, zero_add]
  rfl

end Cert.ReferenceIdeal.RefValue

end
-- ==== Proof.ChunkDistance.lean ====
/-
  The distances of 256 queries to a chunk of 8 prototypes, read at an index.

  The rows of a `[256, 512]` block of queries are set against the rows of an `[8, 512]` chunk of prototypes by giving
  the queries a unit middle axis and the chunk a unit leading axis, broadcasting both to `[256, 8, 512]`, subtracting,
  taking absolute values and summing along the last axis. Entry `(r, j)` of the result is the sum over the 512 features
  `d` of `|x (r, d) - p (j, d)|`: the broadcast queries at `(r, j, d)` are the block at `(r, d)`, the broadcast chunk
  there is the chunk at `(j, d)`, and a sum along one axis at the ideal values is the sum over that axis's coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ChunkDistance

open Idealize.ShloMosaic Idealize.ShloMosaic.ValueIdx

abbrev Q : Shape := ⟨2, ![256, 512]⟩
abbrev Q1 : Shape := ⟨3, ![256, 1, 512]⟩
abbrev C : Shape := ⟨2, ![8, 512]⟩
abbrev C1 : Shape := ⟨3, ![1, 8, 512]⟩
abbrev QC : Shape := ⟨3, ![256, 8, 512]⟩
abbrev R : Shape := ⟨2, ![256, 8]⟩

/-- The queries with a unit middle axis, broadcast along it, read at `(r, j, d)`: the block's entry `(r, d)`. -/
theorem queries_read (x : FVec Ideal Q .f32) (h1 : Q.ShapeCasts Q1) (h2 : Q1.Broadcasts QC)
    (r : Fin 256) (j : Fin 8) (d : Fin 512) :
    broadcastTo QC (shapeCast Q1 x h1) h2 (ix3 r j d) = x (ix2 r d) := by
  refine (broadcastTo_apply _ h2 _ (ix3 r (0 : Fin 1) d) (fun a => match a with
    | ⟨0, _⟩ => by show r.val = if (256 : Nat) = 1 then 0 else r.val; rw [if_neg (by decide)]
    | ⟨1, _⟩ => by show 0 = if (1 : Nat) = 1 then 0 else j.val; rw [if_pos rfl]
    | ⟨2, _⟩ => by show d.val = if (512 : Nat) = 1 then 0 else d.val; rw [if_neg (by decide)])).trans ?_
  exact shapeCast_apply x h1 _ _ (by
    rw [Shape.rowMajor_val_two, Shape.rowMajor_val_three]
    show r.val * 512 + d.val = (r.val * 1 + 0) * 512 + d.val
    omega)

/-- The chunk with a unit leading axis, broadcast along it, read at `(r, j, d)`: the chunk's entry `(j, d)`. -/
theorem chunk_read (p : FVec Ideal C .f32) (h3 : C.ShapeCasts C) (h4 : C.ShapeCasts C1) (h5 : C1.Broadcasts QC)
    (r : Fin 256) (j : Fin 8) (d : Fin 512) :
    broadcastTo QC (shapeCast C1 (shapeCast C p h3) h4) h5 (ix3 r j d) = p (ix2 j d) := by
  rw [shapeCast_self]
  refine (broadcastTo_apply _ h5 _ (ix3 (0 : Fin 1) j d) (fun a => match a with
    | ⟨0, _⟩ => by show 0 = if (1 : Nat) = 1 then 0 else r.val; rw [if_pos rfl]
    | ⟨1, _⟩ => by show j.val = if (8 : Nat) = 1 then 0 else j.val; rw [if_neg (by decide)]
    | ⟨2, _⟩ => by show d.val = if (512 : Nat) = 1 then 0 else d.val; rw [if_neg (by decide)])).trans ?_
  exact shapeCast_ab_1ab_apply p h4 (0 : Fin 1) j d

/-- The index over `(r, j)` with feature `d` put back on the summed axis is `(r, j, d)`. -/
theorem lift_feature (h : QC.Reduces [2] R) (r : Fin 256) (j : Fin 8) (d : Fin (QC.size 2)) :
    h.lift (ix2 r j) d = ix3 r j (⟨d.val, d.isLt⟩ : Fin 512) := by
  funext c; apply Fin.ext
  fin_cases c <;> rfl

/-- Entry `(r, j)` of the chunk's distances: the sum over the features of `|x (r, d) - p (j, d)|`. -/
theorem distances_read (x : FVec Ideal Q .f32) (p : FVec Ideal C .f32) (h1 : Q.ShapeCasts Q1) (h2 : Q1.Broadcasts QC)
    (h3 : C.ShapeCasts C) (h4 : C.ShapeCasts C1) (h5 : C1.Broadcasts QC) (h : QC.Reduces [2] R)
    (hφ : FKind.Formats .f32) (hacc : (0x00000000#32 : BitVec 32) = FKind.add.neutral .f32 hφ) (r : Fin 256) (j : Fin 8) :
    multiReduction .add [2] R (absf (subf (broadcastTo QC (shapeCast Q1 x h1) h2)
        (broadcastTo QC (shapeCast C1 (shapeCast C p h3) h4) h5))) 0x00000000#32 h hφ hacc (ix2 r j)
      = ∑ d : Fin 512, max (x (ix2 r d) - p (ix2 j d)) (-(x (ix2 r d) - p (ix2 j d))) := by
  refine (Ideal.multiReduction_add_single _ _ h hφ hacc (ix2 r j)).trans ?_
  refine Finset.sum_congr rfl fun d _ => ?_
  rw [lift_feature h r j d]
  show max (broadcastTo QC (shapeCast Q1 x h1) h2 (ix3 r j ⟨d.val, d.isLt⟩)
        - broadcastTo QC (shapeCast C1 (shapeCast C p h3) h4) h5 (ix3 r j ⟨d.val, d.isLt⟩))
      (-(broadcastTo QC (shapeCast Q1 x h1) h2 (ix3 r j ⟨d.val, d.isLt⟩)
        - broadcastTo QC (shapeCast C1 (shapeCast C p h3) h4) h5 (ix3 r j ⟨d.val, d.isLt⟩))) = _
  rw [queries_read, chunk_read]
  rfl

end Cert.ChunkDistance

end
-- ==== Proof.SoftmaxRows.lean ====
/-
  The softmax along the rows of a `[256, 64]` block of distances, read at an index.

  From a block `D` of distances the scores are `0 - D`; the largest score of each row is taken along the row from minus
  infinity, kept as a column and broadcast back over the row; each score less its row's largest is exponentiated; the
  exponentials are summed along the row, kept as a column and broadcast back; and each exponential is divided by its
  row's sum. On the extended reals `0 - a` is `-a` for every `a`, infinite or not. So with row `r` of `D` written
  `dr`, the largest score of the row is the fold of `max` over `-(dr k)`, the row's sum is the sum of the weights
  of those scores, and entry `(r, c)` is the softmax of the row's scores at `c`.
-/
import proofs.«140538_j64939905516355_2_alg».proof.Proof.ClassProb
import proofs.«140538_j64939905516355_2_alg».proof.Proof.LibRowOps

noncomputable section

namespace Cert.SoftmaxRows

open Idealize.ShloMosaic Idealize.ShloMosaic.ValueIdx Cert.ClassProb

abbrev M : Shape := ⟨2, ![256, 64]⟩
abbrev V : Shape := ⟨1, ![256]⟩
abbrev K : Shape := ⟨2, ![256, 1]⟩

/-- The zero pattern less `a` is `-a`, on every extended real. -/
theorem zero_sub_read (a : EReal) :
    FloatOps.subf (F := Ideal) (φ := .f32) (Scalar.ofBits .f32 0x00000000#32) a = -a := by
  show Ideal.ofBits .f32 0x00000000#32 - a = -a
  rw [Ideal.ofBits_zero_f32, zero_sub]

/-- The scores `0 - D` at an index: the negated distance there. -/
theorem scores_read (D : FVec Ideal M .f32) (i : M.Idx) :
    subf (broadcast M (Scalar.ofBits (F := Ideal) .f32 0x00000000#32)) D i = -(D i) :=
  zero_sub_read (D i)

/-- The largest score of row `r`: the fold of `max` from minus infinity over the row's negated distances. -/
theorem rowMax_read (D : FVec Ideal M .f32) (h : M.Reduces [1] V) (hφ : FKind.Formats .f32)
    (hacc : (0xFF800000#32 : BitVec 32) = FKind.maximumf.neutral .f32 hφ) (r : Fin 256) (dr : Fin 64 → EReal)
    (hD : ∀ k, D (ix2 r k) = dr k) :
    multiReduction .maximumf [1] V (subf (broadcast M (Scalar.ofBits .f32 0x00000000#32)) D) 0xFF800000#32 h hφ hacc (ix1 r)
      = top (fun k => -(dr k)) := by
  refine (Cert.RowOps.multiReduction_maximumf_row _ _ h hφ hacc r).trans ?_
  unfold top
  refine congrArg (fun f => (Finset.univ : Finset (Fin 64)).fold max (Ideal.ofBits .f32 0xFF800000#32) f) (funext fun k => ?_)
  rw [scores_read, hD]

/-- The sum along row `r` of the exponentials of the scores less the row's largest: the sum of the row's weights. -/
theorem rowSum_read (D : FVec Ideal M .f32) (h : M.Reduces [1] V) (hc : V.ShapeCasts K) (hb : K.Broadcasts M)
    (hφ : FKind.Formats .f32) (hacc : (0xFF800000#32 : BitVec 32) = FKind.maximumf.neutral .f32 hφ)
    (hφ' : FKind.Formats .f32) (hacc' : (0x00000000#32 : BitVec 32) = FKind.add.neutral .f32 hφ')
    (r : Fin 256) (dr : Fin 64 → EReal) (hD : ∀ k, D (ix2 r k) = dr k) :
    multiReduction .add [1] V (exp (subf (subf (broadcast M (Scalar.ofBits .f32 0x00000000#32)) D)
        (broadcastTo M (shapeCast K (multiReduction .maximumf [1] V
          (subf (broadcast M (Scalar.ofBits .f32 0x00000000#32)) D) 0xFF800000#32 h hφ hacc) hc) hb)))
        0x00000000#32 h hφ' hacc' (ix1 r)
      = ∑ k : Fin 64, weight (fun k => -(dr k)) k := by
  refine (Cert.RowOps.multiReduction_add_row _ _ h hφ' hacc' r).trans ?_
  refine Finset.sum_congr rfl fun k _ => ?_
  show Ideal.exp (subf (broadcast M (Scalar.ofBits (F := Ideal) .f32 0x00000000#32)) D (ix2 r k)
      - broadcastTo M (shapeCast K _ hc) hb (ix2 r k)) = _
  rw [Cert.RowOps.broadcastTo_a1_ab_apply, Cert.RowOps.shapeCast_a_a1_apply, rowMax_read D h hφ hacc r dr hD,
    scores_read, hD]
  rfl

/-- Entry `(r, c)` of the block's softmax: the softmax of row `r`'s scores at `c`. The entry's own distance `e` and
    the two row indices are taken as the body spells them, with what they are as hypotheses. -/
theorem softmax_read (D : FVec Ideal M .f32) (h : M.Reduces [1] V) (hc : V.ShapeCasts K) (hb : K.Broadcasts M)
    (hφ : FKind.Formats .f32) (hacc : (0xFF800000#32 : BitVec 32) = FKind.maximumf.neutral .f32 hφ)
    (hφ' : FKind.Formats .f32) (hacc' : (0x00000000#32 : BitVec 32) = FKind.add.neutral .f32 hφ')
    (r : Fin 256) (c : Fin 64) (dr : Fin 64 → EReal) (hD : ∀ k, D (ix2 r k) = dr k)
    (e : EReal) (he : e = dr c) (j1 j2 : V.Idx) (hj1 : j1 = ix1 r) (hj2 : j2 = ix1 r) :
    FloatOps.divf (F := Ideal) (φ := .f32) (FloatOps.exp (FloatOps.subf (FloatOps.subf (Scalar.ofBits .f32 0x00000000#32) e)
        (multiReduction .maximumf [1] V (subf (broadcast M (Scalar.ofBits .f32 0x00000000#32)) D) 0xFF800000#32 h hφ hacc j1)))
      (multiReduction .add [1] V (exp (subf (subf (broadcast M (Scalar.ofBits .f32 0x00000000#32)) D)
        (broadcastTo M (shapeCast K (multiReduction .maximumf [1] V
          (subf (broadcast M (Scalar.ofBits .f32 0x00000000#32)) D) 0xFF800000#32 h hφ hacc) hc) hb)))
        0x00000000#32 h hφ' hacc' j2)
      = soft (fun k => -(dr k)) c := by
  subst he hj1 hj2
  rw [rowMax_read D h hφ hacc r dr hD, rowSum_read D h hc hb hφ hacc hφ' hacc' r dr hD, zero_sub_read]
  rfl

end Cert.SoftmaxRows

end
-- ==== Proof.BlockIsClassProb.lean ====
/-
  What the kernel's body leaves in its output block is the class probabilities of the block's queries.

  The body loads its 256 queries whole and the 64 prototypes eight rows at a time: the load from row `8n` on reads
  rows `8n + j`, `j < 8`. Against each chunk it forms the 256 by 8 distances, and it lays the eight results side by
  side, so that column `k` of the 256 by 64 result is column `k % 8` of chunk `k / 8`: the distance of the row's query
  to prototype `8 (k / 8) + k % 8 = k`. The rest of the body is the softmax along the rows of that matrix.
-/
import proofs.«140538_j64939905516355_2_alg».proof.Proof.Gen.KernelIdeal.Value
import proofs.«140538_j64939905516355_2_alg».proof.Proof.ClassProb
import proofs.«140538_j64939905516355_2_alg».proof.Proof.ChunkDistance
import proofs.«140538_j64939905516355_2_alg».proof.Proof.SoftmaxRows

noncomputable section

namespace Cert.KernelIdeal.BlockValue

open Cert.KernelIdeal Cert.KernelIdeal.Gen Cert.KernelIdeal.Value Idealize.ShloMosaic Idealize.ShloMosaic.ValueIdx
open Cert.ClassProb

theorem hz : (![0, 0] : Fin 2 → Nat) = fun _ => 0 := funext fun a => by fin_cases a <;> rfl

/-- Eight rows of the prototypes loaded from row `o` on: row `j` of the load is row `o + j` of the prototypes. -/
theorem rows_read (x1 : Vec Ideal S64x512 .f32) (o : Nat) (inb : ∀ a, (![o, 0] : Fin 2 → Nat) a + S8x512.size a ≤ S64x512.size a)
    (j : Fin 8) (d : Fin 512) (k : Fin 64) (hk : k.val = o + j.val) :
    View.ld x1 (Rect.unit (s := S64x512) ![o, 0] S8x512.size inb) (ix2 j d) = x1 (ix2 k d) := by
  show x1 ((Rect.unit (s := S64x512) ![o, 0] S8x512.size inb).toLoadRect.idx (ix2 j d)) = _
  congr 1
  funext a; apply Fin.ext
  match a with
  | ⟨0, _⟩ => show o + 1 * j.val = k.val; omega
  | ⟨1, _⟩ => show 0 + 1 * d.val = d.val; omega

/-- Chunk `n` of the eight distance matrices at `(r, j)`: the L1 distance of query `r` to prototype `8n + j`. -/
theorem chunk_eq (x0 : Vec Ideal S256x512 .f32) (x1 : Vec Ideal S64x512 .f32) (n j : Fin 8) (r : Fin 256) (k : Fin 64)
    (hk : k.val = 8 * n.val + j.val) :
    Cat2_0 (View.ld x0 r0_0) (View.ld x1 r0_1) (View.ld x1 r0_2) (View.ld x1 r0_3) (View.ld x1 r0_4) (View.ld x1 r0_5)
        (View.ld x1 r0_6) (View.ld x1 r0_7) (View.ld x1 r0_8) n (ix2 r j)
      = l1 (fun d => x0 (ix2 r d)) x1 k := by
  have e0 : View.ld x0 r0_0 = x0 := View.ld_unit_zero (S := S256x512) hz _ x0
  unfold l1
  match n with
  | ⟨0, _⟩ =>
    refine (Cert.ChunkDistance.distances_read (View.ld x0 r0_0) (View.ld x1 r0_1) _ _ _ _ _ _ _ _ r j).trans ?_
    exact Finset.sum_congr rfl fun d _ => by rw [e0, rows_read x1 0 _ j d k (by simpa using hk)]
  | ⟨1, _⟩ =>
    refine (Cert.ChunkDistance.distances_read (View.ld x0 r0_0) (View.ld x1 r0_2) _ _ _ _ _ _ _ _ r j).trans ?_
    exact Finset.sum_congr rfl fun d _ => by rw [e0, rows_read x1 8 _ j d k (by simpa using hk)]
  | ⟨2, _⟩ =>
    refine (Cert.ChunkDistance.distances_read (View.ld x0 r0_0) (View.ld x1 r0_3) _ _ _ _ _ _ _ _ r j).trans ?_
    exact Finset.sum_congr rfl fun d _ => by rw [e0, rows_read x1 16 _ j d k (by simpa using hk)]
  | ⟨3, _⟩ =>
    refine (Cert.ChunkDistance.distances_read (View.ld x0 r0_0) (View.ld x1 r0_4) _ _ _ _ _ _ _ _ r j).trans ?_
    exact Finset.sum_congr rfl fun d _ => by rw [e0, rows_read x1 24 _ j d k (by simpa using hk)]
  | ⟨4, _⟩ =>
    refine (Cert.ChunkDistance.distances_read (View.ld x0 r0_0) (View.ld x1 r0_5) _ _ _ _ _ _ _ _ r j).trans ?_
    exact Finset.sum_congr rfl fun d _ => by rw [e0, rows_read x1 32 _ j d k (by simpa using hk)]
  | ⟨5, _⟩ =>
    refine (Cert.ChunkDistance.distances_read (View.ld x0 r0_0) (View.ld x1 r0_6) _ _ _ _ _ _ _ _ r j).trans ?_
    exact Finset.sum_congr rfl fun d _ => by rw [e0, rows_read x1 40 _ j d k (by simpa using hk)]
  | ⟨6, _⟩ =>
    refine (Cert.ChunkDistance.distances_read (View.ld x0 r0_0) (View.ld x1 r0_7) _ _ _ _ _ _ _ _ r j).trans ?_
    exact Finset.sum_congr rfl fun d _ => by rw [e0, rows_read x1 48 _ j d k (by simpa using hk)]
  | ⟨7, _⟩ =>
    refine (Cert.ChunkDistance.distances_read (View.ld x0 r0_0) (View.ld x1 r0_8) _ _ _ _ _ _ _ _ r j).trans ?_
    exact Finset.sum_congr rfl fun d _ => by rw [e0, rows_read x1 56 _ j d k (by simpa using hk)]

/-- THE BLOCK: what the body leaves at `(r, k)` of its output block, from a block `x0` of 256 queries and the
    prototypes `x1`, is the softmax of query `r`'s scores at class `k`. -/
theorem out_read (x0 : Vec Ideal S256x512 .f32) (x1 : Vec Ideal S64x512 .f32) (r : Fin 256) (k : Fin 64) :
    out0_2 x0 x1 (ix2 r k) = soft (scores (fun d => x0 (ix2 r d)) x1) k := by
  unfold out0_2
  rw [canon2_eq]
  show _ = soft (fun c => -(l1 (fun d => x0 (ix2 r d)) x1 c)) k
  refine Cert.SoftmaxRows.softmax_read _ _ _ _ _ _ _ _ r k (l1 (fun d => x0 (ix2 r d)) x1) ?hD _ ?he _ _ ?hj1 ?hj2
  case hj1 => exact funext fun a => match a with | ⟨0, _⟩ => rfl
  case hj2 => exact funext fun a => match a with | ⟨0, _⟩ => rfl
  case he =>
    have ei : ix2_0 (ix2 r k) = ix2 r (⟨k.val % 8, Nat.mod_lt _ (by decide)⟩ : Fin 8) :=
      funext fun a => match a with | ⟨0, _⟩ => rfl | ⟨1, _⟩ => rfl
    rw [ei]
    exact chunk_eq x0 x1 _ _ r k (by show k.val = 8 * (k.val / 8) + k.val % 8; omega)
  case hD =>
    intro c
    show concatenate S256x64 1 (List.ofFn fun n : Fin 8 => (⟨S256x8, Cat2_0 (View.ld x0 r0_0) (View.ld x1 r0_1)
      (View.ld x1 r0_2) (View.ld x1 r0_3) (View.ld x1 r0_4) (View.ld x1 r0_5) (View.ld x1 r0_6) (View.ld x1 r0_7)
      (View.ld x1 r0_8) n⟩ : (s : Shape) × (s.Idx → _))) _ (ix2 r c) = _
    refine (concatenate_ofFn_apply (t := S256x64) (s₁ := S256x8) (1 : Fin 2) (Cat2_0 (View.ld x0 r0_0) (View.ld x1 r0_1)
      (View.ld x1 r0_2) (View.ld x1 r0_3) (View.ld x1 r0_4) (View.ld x1 r0_5) (View.ld x1 r0_6) (View.ld x1 r0_7)
      (View.ld x1 r0_8)) _ rfl 8 rfl (ix2 r c) (⟨c.val / 8, by have := c.isLt; omega⟩ : Fin 8) rfl
      (ix2 r (⟨c.val % 8, Nat.mod_lt _ (by decide)⟩ : Fin 8)) rfl
      (fun b hb => by match b with | ⟨0, _⟩ => rfl | ⟨1, _⟩ => exact absurd rfl hb)).trans ?_
    exact chunk_eq x0 x1 _ _ r c (by show c.val = 8 * (c.val / 8) + c.val % 8; omega)

end Cert.KernelIdeal.BlockValue

end
-- ==== Proof.ArrayIsClassProb.lean ====
/-
  The kernel's result array is the class probabilities of all 8192 queries.

  The grid has 32 points; point `t` takes queries `256 t … 256 t + 255` as its block, the whole `[64, 512]` array of
  prototypes at every point, and writes rows `256 t … 256 t + 255` of the `[8192, 64]` result. The prototypes the region
  finds are what the operations before it left: the sum over the five shots divided by five. Row `r` of point `t`'s block is
  the softmax of the scores of query `256 t + r`, which is row `256 t + r` of the class probabilities; the 32 blocks cover
  every row (row `i` is in block `i / 256`), so the array ends holding the class probabilities.
-/
import proofs.«140538_j64939905516355_2_alg».proof.Proof.Gen.KernelIdeal.Value
import proofs.«140538_j64939905516355_2_alg».proof.Proof.BlockIsClassProb
import Idealize.ShloMosaic.Lib.Pipeline.Value
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.ClassProb
open Idealize.ShloMosaic.Pipeline (Dat)

variable (m : (ℓ : Loc nD τ sig) → Buf (Elt Ideal) ℓ) (ρ : Dev nD → PrngReg)

/-- The prototypes: each class's five shots summed from zero and divided by five, feature by feature. -/
abbrev protos (y : (⟨S64x5x512, .f32⟩ : BufTy).Contents (Elt Ideal)) : (⟨S64x512, .f32⟩ : BufTy).Contents (Elt Ideal) :=
  Host.divf (Host.reduceAdd y (constant (F := Ideal) S_ .f32 0x00000000#32) reducesTo_S64x5x512_S64x512_d1 h_S_)
    (broadcastInDim S64x512 ![] bcast_S_S64x512 (constant (F := Ideal) S_ .f32 0x40A00000#32))

/-- The region finds the prototypes in its second operand's array. -/
theorem V_main_v2 (c : Dev nD) :
    (V m c main_v2 : S64x512.Idx → EReal) = protos (m ((c : Thread nD τ).loc main_arg1)) := by
  dsimp only [Gen.V, Gen.hostOps0]; after_results

/-- The index maps over the grid: the queries' and the result's blocks move down one block per point, the prototypes'
    block stays, and no block moves sideways. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of queries and the prototypes against the arrays they are read from: when row `y 0` of the block is row
    `i 0` of the queries `X`, the prototypes are `P`, and column `y 1` is column `i 1`, the body's result at `y` is the
    class probability at `i`. -/
theorem block_eq (X : (⟨2, ![8192, 512]⟩ : Shape).Idx → EReal) (P : (⟨2, ![64, 512]⟩ : Shape).Idx → EReal)
    (x0 : Vec Ideal S256x512 .f32) (x1 : Vec Ideal S64x512 .f32) (y : S256x64.Idx) (i : (⟨2, ![8192, 64]⟩ : Shape).Idx)
    (h0 : ∀ (r : Fin 256) (d : Fin 512), r.val = (y 0).val → x0 (ix2 r d) = X (ix2 (i 0) d))
    (h1 : ∀ j : S64x512.Idx, x1 j = P j) (hk : (i 1).val = (y 1).val) :
    out0_2 x0 x1 y = classProb X P i := by
  obtain ⟨r, k, rfl⟩ : ∃ (r : Fin 256) (k : Fin 64), y = ix2 r k := ⟨y 0, y 1, eq_ix2 y⟩
  rw [Cert.KernelIdeal.BlockValue.out_read]
  have hP : x1 = P := funext h1
  have hu : (fun d => x0 (ix2 r d)) = fun d => X (ix2 (i 0) d) := funext fun d => h0 r d rfl
  have hki : (i 1) = k := Fin.ext hk
  unfold classProb
  rw [hu, hP, hki]

/-- WHAT POINT `t` WRITES BACK is block `t` of the class probabilities of the arrays as the region finds them. -/
theorem flushed_eq (c : Dev nD) (t : Fin cfg0.N) :
    (dats m 0 c).flushed 2 t
      = ((cfg0.win 2).blk t).view.read (Elt Ideal) (classProb (V m c main_arg0) (V m c main_v2)) := by
  rw [Value.flushed2]
  obtain ⟨e00, e01, e10, e11, e20, e21⟩ := idx_facts t
  funext y
  show out0_2 (iblk m c 0 t) (iblk m c 1 t) y
    = classProb (V m c main_arg0) (V m c main_v2) (((cfg0.win 2).blk t).view.emb y)
  refine block_eq (V m c main_arg0) (V m c main_v2) (iblk m c 0 t) (iblk m c 1 t) y _ ?_ ?_ ?_
  · intro r d hr
    show V m c main_arg0 (((cfg0.win 0).blk t).view.emb (ix2 r d))
      = V m c main_arg0 (ix2 ((((cfg0.win 2).blk t).view.emb y) 0) d)
    congr 1
    funext a; apply Fin.ext
    match a with
    | ⟨0, _⟩ =>
      show win0_0.index t (0 : Fin 2) * 256 + 1 * r.val = win0_2.index t (0 : Fin 2) * 256 + 1 * (y 0).val
      rw [e00, e20, hr]
    | ⟨1, _⟩ =>
      show win0_0.index t (1 : Fin 2) * 512 + 1 * d.val = d.val
      rw [e01]; omega
  · intro j
    show V m c main_v2 (((cfg0.win 1).blk t).view.emb j) = V m c main_v2 j
    congr 1
    funext a; apply Fin.ext
    match a with
    | ⟨0, _⟩ =>
      show win0_1.index t (0 : Fin 2) * 64 + 1 * (j 0).val = (j 0).val
      rw [e10]; omega
    | ⟨1, _⟩ =>
      show win0_1.index t (1 : Fin 2) * 512 + 1 * (j 1).val = (j 1).val
      rw [e11]; omega
  · show win0_2.index t (1 : Fin 2) * 64 + 1 * (y 1).val = (y 1).val
    rw [e21]; omega

/-- An index of the result is in point `t`'s block iff each coordinate is in the block's range on its axis. -/
theorem mem_blk (t : Fin cfg0.N) (i : S8192x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v3).slice (win0_2.rect t)).set ↔ _
  rw [View.set_slice_whole, Rect.mem_set_unit]
  exact Iff.rfl

/-- Every index of the result is in some point's block: row `i 0` is in block `i 0 / 256`. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    rw [e20, ht]; omega
  | ⟨1, _⟩ =>
    show win0_2.index t (1 : Fin 2) * 64 ≤ (i 1).val ∧ (i 1).val < win0_2.index t (1 : Fin 2) * 64 + 64
    rw [e21]; omega

/-- THE ARRAY after the run: the class probabilities of the queries against the prototypes. -/
theorem final (c : Dev nD) :
    (dats m 0 c).arrAt 2 cfg0.N
      = classProb (m ((c : Thread nD τ).loc main_arg0)) (protos (m ((c : Thread nD τ).loc main_arg1))) := by
  rw [(dats m 0 c).arrAt_eq_of_cover 2 (classProb (V m c main_arg0) (V m c main_v2)) (fun t _ => flushed_eq m c t) cover,
    V_main_arg0, V_main_v2]

/-- The kernel's run, read: the result array at the class probabilities, the arguments unchanged. -/
theorem run : θ_run defs (onTc (τ := τ) (main (F := Ideal))) ⟨m, fun _ => 0, ρ⟩ fun r => ∀ c : Dev nD,
      r.2.mem ((c : Thread nD τ).loc main_v3)
        = classProb (m ((c : Thread nD τ).loc main_arg0)) (protos (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  Nearest-prototype classification by L1 distance: 8192 queries of 512 features against 64 class prototypes, each the
  mean of the class's five shots, scored by the negated sum of absolute differences and turned into probabilities by a
  softmax over the classes.

  Both programs first average the shots on the host, by the same two operations. The kernel then takes 256 queries per
  grid point, forms the distances to the prototypes eight classes at a time, lays the eight 256 by 8 results side by
  side, and applies the softmax along the rows; the reference forms all 8192 by 64 distances at once and applies the
  same softmax. At the ideal values every operation of one program is the corresponding operation of the other —
  subtraction, absolute value, sums from zero, `0 - a` against `-a`, the fold of `max` from minus infinity (the
  reference takes one more `max` against minus infinity, which is the identity), the exponential and the quotient —
  so both results are the one function `Cert.ClassProb.classProb` of the queries and the prototypes, index by index,
  on every extended real: the precondition is not needed for the equality. The kernel's idealization rewrote nothing.
-/
import proofs.«140538_j64939905516355_2_alg».proof.Defs
import proofs.«140538_j64939905516355_2_alg».proof.Proof.Gen.Kernel
import proofs.«140538_j64939905516355_2_alg».proof.Proof.Gen.Kernel.Skeleton
import proofs.«140538_j64939905516355_2_alg».proof.Proof.Gen.Kernel.Launch
import proofs.«140538_j64939905516355_2_alg».proof.Proof.Gen.Kernel.Points
import proofs.«140538_j64939905516355_2_alg».proof.Proof.Gen.Kernel.Frame
import proofs.«140538_j64939905516355_2_alg».proof.Proof.Gen.KernelIdeal
import proofs.«140538_j64939905516355_2_alg».proof.Proof.Gen.KernelIdeal.Skeleton
import proofs.«140538_j64939905516355_2_alg».proof.Proof.Gen.KernelIdeal.Launch
import proofs.«140538_j64939905516355_2_alg».proof.Proof.Gen.KernelIdeal.Points
import proofs.«140538_j64939905516355_2_alg».proof.Proof.Gen.KernelIdeal.Frame
import proofs.«140538_j64939905516355_2_alg».proof.Proof.Gen.ReferenceIdeal
import proofs.«140538_j64939905516355_2_alg».proof.Proof.Gen.Pre_finite_inputs
import proofs.«140538_j64939905516355_2_alg».proof.Proof.Gen.KernelIdeal.Value
import proofs.«140538_j64939905516355_2_alg».proof.Proof.Gen.ReferenceIdeal.Run
import proofs.«140538_j64939905516355_2_alg».proof.Proof.Gen.ReferenceIdeal.Read
import proofs.«140538_j64939905516355_2_alg».proof.Proof.RefIsClassProb
import proofs.«140538_j64939905516355_2_alg».proof.Proof.ArrayIsClassProb
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- The idealized kernel runs and leaves its arguments unchanged. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the queries and the shots, the kernel's result array and the reference's both end at the
    class probabilities of the queries against the shots' means. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
